-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S4000x128 : Shape := ⟨2, ![4000, 128]⟩
abbrev S100x128 : Shape := ⟨2, ![100, 128]⟩
abbrev S100000x1 : Shape := ⟨2, ![100000, 1]⟩
abbrev S100 : Shape := ⟨1, ![100]⟩
abbrev S100x1 : Shape := ⟨2, ![100, 1]⟩

abbrev nBuf : Space → Nat
  | .hbm => 71
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S128x128, .f32⟩
  | .hbm, ⟨16, _⟩ => ⟨S128x128, .bf16⟩
  | .hbm, ⟨17, _⟩ => ⟨S128x128, .f32⟩
  | .hbm, ⟨18, _⟩ => ⟨S128x128, .bf16⟩
  | .hbm, ⟨19, _⟩ => ⟨S128x128, .f32⟩
  | .hbm, ⟨20, _⟩ => ⟨S128x128, .bf16⟩
  | .hbm, ⟨21, _⟩ => ⟨S128x128, .f32⟩
  | .hbm, ⟨22, _⟩ => ⟨S128x128, .bf16⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100x128, .f32⟩
  | .hbm, ⟨57, _⟩ => ⟨S100000x1, .i32⟩
  | .hbm, ⟨58, _⟩ => ⟨S100x128, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S100, .f32⟩
  | .hbm, ⟨63, _⟩ => ⟨S100000x1, .i32⟩
  | .hbm, ⟨64, _⟩ => ⟨S100, .f32⟩
  | .hbm, ⟨65, _⟩ => ⟨S_, .f32⟩
  | .hbm, ⟨66, _⟩ => ⟨S100, .f32⟩
  | .hbm, ⟨67, _⟩ => ⟨S100, .f32⟩
  | .hbm, ⟨68, _⟩ => ⟨S100x1, .f32⟩
  | .hbm, ⟨69, _⟩ => ⟨S100x128, .f32⟩
  | .hbm, ⟨70, _⟩ => ⟨S100x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bitsLt_bf16_f32 : FTy.bits .bf16 < FTy.bits .f32
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S100x128 : S_.BroadcastsInDim S100x128 (![] : Fin 0 → Fin S100x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S100x128_S100000x1_S100000x128_1_0_0_1_wf : ScatterDims.WF S100x128 S100000x1 S100000x128 [1] [0] [0] 1
  scatter_S100_S100000x1_S100000_n_0_0_1_wf : ScatterDims.WF S100 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100x128 : Shape := ⟨2, ![100, 128]⟩
abbrev S100000x1 : Shape := ⟨2, ![100000, 1]⟩
abbrev S100 : Shape := ⟨1, ![100]⟩
abbrev S100x1 : Shape := ⟨2, ![100, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S1x1600000, .i32⟩
  | .hbm, ⟨46, _⟩ => ⟨S1600000, .i32⟩
  | .hbm, ⟨47, _⟩ => ⟨S1x1600000, .i32⟩
  | .hbm, ⟨48, _⟩ => ⟨S1600000, .i32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S128x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100x128, .f32⟩
  | .hbm, ⟨81, _⟩ => ⟨S100000x1, .i32⟩
  | .hbm, ⟨82, _⟩ => ⟨S100x128, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S100, .f32⟩
  | .hbm, ⟨87, _⟩ => ⟨S100000x1, .i32⟩
  | .hbm, ⟨88, _⟩ => ⟨S100, .f32⟩
  | .hbm, ⟨89, _⟩ => ⟨S_, .f32⟩
  | .hbm, ⟨90, _⟩ => ⟨S100, .f32⟩
  | .hbm, ⟨91, _⟩ => ⟨S100, .f32⟩
  | .hbm, ⟨92, _⟩ => ⟨S100x1, .f32⟩
  | .hbm, ⟨93, _⟩ => ⟨S100x128, .f32⟩
  | .hbm, ⟨94, _⟩ => ⟨S100x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_1 : Ref sig .tc := ⟨.hbm, 49, rfl⟩
abbrev main_v31 : Ref sig .tc := ⟨.hbm, 50, rfl⟩
abbrev main_v32 : Ref sig .tc := ⟨.hbm, 51, rfl⟩
abbrev main_c_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call3_cst : Ref sig .tc := ⟨.hbm, 76, rfl⟩
abbrev main_call3_v0 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100x128 : S_.BroadcastsInDim S100x128 (![] : Fin 0 → Fin S100x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S100x128_S100000x1_S100000x128_1_0_0_1_wf : ScatterDims.WF S100x128 S100000x1 S100000x128 [1] [0] [0] 1
  scatter_S100_S100000x1_S100000_n_0_0_1_wf : ScatterDims.WF S100 S100000x1 S100000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf

class Facts : Prop extends Facts₀ where

variable [Facts]
-- ==== Proof.KernelRun.lean ====
/-
  The kernel program's run with its two results named.

  Every weakly fair execution of the program terminates, nothing faulting, and in every final state the pooled array
  and the node array hold what the last boundary of the run's fold holds there, and the argument arrays are as launched.
  The launch is the one the frame claim is proved by — the five segments, the two calls' proof data, the thread state
  carried through — read against the final state at two more buffers: the last thread state holds EVERY unscoped buffer
  at the last boundary's contents, the results among them.
-/
import proofs.«177730_j51677046505640_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the results at the last boundary's contents, the arguments as launched. -/
theorem run_named : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_v37) = W5 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       h c _ (mem_uc main_v37 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Named

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibDenseLayers.lean ====
/-
  Two dense stages of a node-wise network, as functions of whole arrays read at an index, over the extended reals — stated
  for any extents.

  * `mlpAt x wa ba wb bb r j` is entry `(r, j)` of `relu ((x · wa + ba) · wb + bb)`: the inner product of row `r` of `x` with
    column `k` of `wa` plus the bias `ba k`, for every `k`; those multiplied into column `j` of `wb` and summed, plus the bias
    `bb j`; the maximum of that and zero.
  * `sageAt mean h wl bl wr r` is entry `(r, 0)` of `relu (mean · wl + bl + h · wr)`.

  Both the tiled kernels' bodies (a `tpu.matmul` into the zero accumulator per row block, the operands narrowed to bf16 on the
  way in: the identity on extended reals) and the reference's host operations (a `dot_general`, biases broadcast in two
  steps) read, at an index, as these sums. No law of the extended reals is needed: the summands and their order agree.
-/
import proofs.«177730_j51677046505640_1_alg».proof.Proof.LibRowOps

noncomputable section

open scoped BigOperators

namespace Idealize.ShloMosaic.DenseLayers

open Idealize.ShloMosaic Idealize.ShloMosaic.ValueIdx Idealize.ShloMosaic.RowOps

/-- Entry `(r, j)` of `relu ((x · wa + ba) · wb + bb)`, the biases rows `[1, ·]`. -/
def mlpAt {R A B D : Nat} (x : FVec Ideal (⟨2, ![R, A]⟩ : Shape) .f32) (wa : FVec Ideal (⟨2, ![A, B]⟩ : Shape) .f32)
    (ba : FVec Ideal (⟨2, ![1, B]⟩ : Shape) .f32) (wb : FVec Ideal (⟨2, ![B, D]⟩ : Shape) .f32)
    (bb : FVec Ideal (⟨2, ![1, D]⟩ : Shape) .f32) (r : Fin R) (j : Fin D) : Ideal .f32 :=
  max (∑ k : Fin B, (∑ l : Fin A, x (ix2 r l) * wa (ix2 l k) + ba (ix2 (0 : Fin 1) k)) * wb (ix2 k j) + bb (ix2 (0 : Fin 1) j))
    (Ideal.ofBits .f32 0x00000000#32)

/-- Entry `(r, 0)` of `relu (mean · wl + bl + h · wr)`, the bias one number `[1, 1]`. -/
def sageAt {R A : Nat} (mean h : FVec Ideal (⟨2, ![R, A]⟩ : Shape) .f32) (wl : FVec Ideal (⟨2, ![A, 1]⟩ : Shape) .f32)
    (bl : FVec Ideal (⟨2, ![1, 1]⟩ : Shape) .f32) (wr : FVec Ideal (⟨2, ![A, 1]⟩ : Shape) .f32) (r : Fin R) (j : Fin 1) : Ideal .f32 :=
  max ((∑ k : Fin A, mean (ix2 r k) * wl (ix2 k j) + bl (ix2 (0 : Fin 1) j)) + ∑ k : Fin A, h (ix2 r k) * wr (ix2 k j))
    (Ideal.ofBits .f32 0x00000000#32)

/-! ## The kernels' bodies -/

/-- The two-layer body on one row block: both products into the zero accumulator, the operands narrowed to bf16
    (nothing, on extended reals), each bias row broadcast down the block. -/
theorem mlp_body_apply {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (x : FVec Ideal (⟨2, ![R, A]⟩ : Shape) .f32) (wa : FVec Ideal (⟨2, ![A, B]⟩ : Shape) .f32)
    (ba : FVec Ideal (⟨2, ![1, B]⟩ : Shape) .f32) (wb : FVec Ideal (⟨2, ![B, D]⟩ : Shape) .f32)
    (bb : FVec Ideal (⟨2, ![1, D]⟩ : Shape) .f32)
    (hx : (⟨2, ![R, A]⟩ : Shape).ShapeCasts ⟨2, ![R, A]⟩) (hwa : (⟨2, ![A, B]⟩ : Shape).ShapeCasts ⟨2, ![A, B]⟩)
    (hba : (⟨2, ![1, B]⟩ : Shape).ShapeCasts ⟨2, ![1, B]⟩) (hwb : (⟨2, ![B, D]⟩ : Shape).ShapeCasts ⟨2, ![B, D]⟩)
    (hbb : (⟨2, ![1, D]⟩ : Shape).ShapeCasts ⟨2, ![1, D]⟩)
    (hc1 : (⟨2, ![1, B]⟩ : Shape).Broadcasts ⟨2, ![R, B]⟩) (hc2 : (⟨2, ![1, D]⟩ : Shape).Broadcasts ⟨2, ![R, D]⟩)
    (hlt : FTy.bf16.bits < FTy.f32.bits) (r : Fin R) (j : Fin D) :
    maximumf (addf (matmul d2 none
        (truncf .bf16 (addf (matmul d1 none (truncf .bf16 (shapeCast _ x hx) hlt) (truncf .bf16 (shapeCast _ wa hwa) hlt)
            (constant _ .f32 0x00000000#32)) (broadcastTo _ (shapeCast _ ba hba) hc1)) hlt)
        (truncf .bf16 (shapeCast _ wb hwb) hlt) (constant _ .f32 0x00000000#32)) (broadcastTo _ (shapeCast _ bb hbb) hc2))
      (broadcast _ (Scalar.ofBits (F := Ideal) .f32 0x00000000#32)) (ix2 r j)
      = mlpAt x wa ba wb bb r j := by
  rw [maximumf_apply, addf_apply, broadcast_apply, broadcastTo_1b_ab_apply, shapeCast_self, shapeCast_self, shapeCast_self,
    shapeCast_self, shapeCast_self]
  unfold matmul
  rw [matmul_zero_plain_apply d2 hd2]
  unfold mlpAt
  refine congrArg₂ max (congrArg₂ (· + ·) (Finset.sum_congr rfl fun k _ => ?_) rfl) rfl
  rw [truncf_apply, truncf_apply, addf_apply, broadcastTo_1b_ab_apply, matmul_zero_plain_apply d1 hd1]
  rfl

/-- The head's body on one row block: two products into the zero accumulator, the one bias broadcast down the block. -/
theorem sage_body_apply {R A : Nat}
    (d : DotDims (⟨2, ![R, A]⟩ : Shape) ⟨2, ![A, 1]⟩ ⟨2, ![R, 1]⟩) (hd : ∃ wf, d = plainDims wf)
    (mean h : FVec Ideal (⟨2, ![R, A]⟩ : Shape) .f32) (wl : FVec Ideal (⟨2, ![A, 1]⟩ : Shape) .f32)
    (bl : FVec Ideal (⟨2, ![1, 1]⟩ : Shape) .f32) (wr : FVec Ideal (⟨2, ![A, 1]⟩ : Shape) .f32)
    (hx : (⟨2, ![R, A]⟩ : Shape).ShapeCasts ⟨2, ![R, A]⟩) (hw : (⟨2, ![A, 1]⟩ : Shape).ShapeCasts ⟨2, ![A, 1]⟩)
    (hb : (⟨2, ![1, 1]⟩ : Shape).ShapeCasts ⟨2, ![1, 1]⟩) (hc : (⟨2, ![1, 1]⟩ : Shape).Broadcasts ⟨2, ![R, 1]⟩)
    (hlt : FTy.bf16.bits < FTy.f32.bits) (r : Fin R) (j : Fin 1) :
    maximumf (addf (addf (matmul d none (truncf .bf16 (shapeCast _ mean hx) hlt) (truncf .bf16 (shapeCast _ wl hw) hlt)
          (constant _ .f32 0x00000000#32)) (broadcastTo _ (shapeCast _ bl hb) hc))
        (matmul d none (truncf .bf16 (shapeCast _ h hx) hlt) (truncf .bf16 (shapeCast _ wr hw) hlt) (constant _ .f32 0x00000000#32)))
      (broadcast _ (Scalar.ofBits (F := Ideal) .f32 0x00000000#32)) (ix2 r j)
      = sageAt mean h wl bl wr r j := by
  rw [maximumf_apply, addf_apply, addf_apply, broadcast_apply, broadcastTo_1b_ab_apply, shapeCast_self, shapeCast_self, shapeCast_self,
    shapeCast_self, shapeCast_self]
  unfold matmul
  rw [matmul_zero_plain_apply d hd, matmul_zero_plain_apply d hd]
  rfl

/-! ## The reference's host operations -/

/-- A bias `[n]` made a row `[1, n]` and then broadcast to `[m, n]` reads, at `(p, q)`, the bias at `q` — which is what
    the bias reshaped to a row reads at `(0, q)`. -/
theorem bias_row_apply {n m : Nat} (v : FVec Ideal (⟨1, ![n]⟩ : Shape) .f32)
    (h1 : (⟨1, ![n]⟩ : Shape).BroadcastsInDim ⟨2, ![1, n]⟩ ![1]) (h2 : (⟨2, ![1, n]⟩ : Shape).BroadcastsInDim ⟨2, ![m, n]⟩ ![0, 1])
    (hs : (⟨1, ![n]⟩ : Shape).ShapeCasts ⟨2, ![1, n]⟩) (p : Fin m) (q : Fin n) :
    broadcastInDim (⟨2, ![m, n]⟩ : Shape) ![0, 1] h2 (broadcastInDim (⟨2, ![1, n]⟩ : Shape) ![1] h1 v) (ix2 p q)
      = shapeCast (⟨2, ![1, n]⟩ : Shape) v hs (ix2 (0 : Fin 1) q) := by
  rw [shapeCast_a_1a_apply]
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun a => by
    match a with
    | ⟨0, _⟩ =>
      show q.val = if n = 1 then 0 else q.val
      split
      · have := q.isLt; omega
      · rfl)

/-- The reference's two layers: two `dot_general`s, each bias `[n]` made a row and broadcast to every row. -/
theorem mlp_host_apply {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (x : FVec Ideal (⟨2, ![R, A]⟩ : Shape) .f32) (wa : FVec Ideal (⟨2, ![A, B]⟩ : Shape) .f32)
    (ba : FVec Ideal (⟨1, ![B]⟩ : Shape) .f32) (wb : FVec Ideal (⟨2, ![B, D]⟩ : Shape) .f32)
    (bb : FVec Ideal (⟨1, ![D]⟩ : Shape) .f32)
    (ha1 : (⟨1, ![B]⟩ : Shape).BroadcastsInDim ⟨2, ![1, B]⟩ ![1]) (ha2 : (⟨2, ![1, B]⟩ : Shape).BroadcastsInDim ⟨2, ![R, B]⟩ ![0, 1])
    (hb1 : (⟨1, ![D]⟩ : Shape).BroadcastsInDim ⟨2, ![1, D]⟩ ![1]) (hb2 : (⟨2, ![1, D]⟩ : Shape).BroadcastsInDim ⟨2, ![R, D]⟩ ![0, 1])
    (hz : (⟨0, ![]⟩ : Shape).BroadcastsInDim ⟨2, ![R, D]⟩ ![])
    (hsa : (⟨1, ![B]⟩ : Shape).ShapeCasts ⟨2, ![1, B]⟩) (hsb : (⟨1, ![D]⟩ : Shape).ShapeCasts ⟨2, ![1, D]⟩)
    (r : Fin R) (j : Fin D) :
    maximumf (addf (Host.dotGeneral d2 none
        (addf (Host.dotGeneral d1 none x wa) (broadcastInDim _ ![0, 1] ha2 (broadcastInDim (⟨2, ![1, B]⟩ : Shape) ![1] ha1 ba))) wb)
        (broadcastInDim _ ![0, 1] hb2 (broadcastInDim (⟨2, ![1, D]⟩ : Shape) ![1] hb1 bb)))
      (broadcastInDim _ ![] hz (constant (F := Ideal) ⟨0, ![]⟩ .f32 0x00000000#32)) (ix2 r j)
      = mlpAt x wa (shapeCast _ ba hsa) wb (shapeCast _ bb hsb) r j := by
  rw [maximumf_apply, addf_apply, broadcastInDim_scalar_apply, constant_apply, bias_row_apply bb hb1 hb2 hsb]
  unfold Host.dotGeneral
  rw [dotGeneral_plain_apply d2 hd2]
  unfold mlpAt
  refine congrArg₂ max (congrArg₂ (· + ·) (Finset.sum_congr rfl fun k _ => ?_) rfl) rfl
  rw [addf_apply, bias_row_apply ba ha1 ha2 hsa, dotGeneral_plain_apply d1 hd1]

/-- The reference's head: two `dot_general`s and the one bias, made `[1, 1]` and broadcast to every row. -/
theorem sage_host_apply {R A : Nat}
    (d : DotDims (⟨2, ![R, A]⟩ : Shape) ⟨2, ![A, 1]⟩ ⟨2, ![R, 1]⟩) (hd : ∃ wf, d = plainDims wf)
    (mean h : FVec Ideal (⟨2, ![R, A]⟩ : Shape) .f32) (wl : FVec Ideal (⟨2, ![A, 1]⟩ : Shape) .f32)
    (bl : FVec Ideal (⟨1, ![1]⟩ : Shape) .f32) (wr : FVec Ideal (⟨2, ![A, 1]⟩ : Shape) .f32)
    (h1 : (⟨1, ![1]⟩ : Shape).BroadcastsInDim ⟨2, ![1, 1]⟩ ![1]) (h2 : (⟨2, ![1, 1]⟩ : Shape).BroadcastsInDim ⟨2, ![R, 1]⟩ ![0, 1])
    (hz : (⟨0, ![]⟩ : Shape).BroadcastsInDim ⟨2, ![R, 1]⟩ ![]) (hs : (⟨1, ![1]⟩ : Shape).ShapeCasts ⟨2, ![1, 1]⟩)
    (r : Fin R) (j : Fin 1) :
    maximumf (addf (addf (Host.dotGeneral d none mean wl)
          (broadcastInDim _ ![0, 1] h2 (broadcastInDim (⟨2, ![1, 1]⟩ : Shape) ![1] h1 bl))) (Host.dotGeneral d none h wr))
      (broadcastInDim _ ![] hz (constant (F := Ideal) ⟨0, ![]⟩ .f32 0x00000000#32)) (ix2 r j)
      = sageAt mean h wl (shapeCast _ bl hs) wr r j := by
  rw [maximumf_apply, addf_apply, addf_apply, broadcastInDim_scalar_apply, constant_apply, bias_row_apply bl h1 h2 hs]
  unfold Host.dotGeneral
  rw [dotGeneral_plain_apply d hd, dotGeneral_plain_apply d hd]
  rfl

/-! ## The layers depend on one row of the activations -/

/-- Entry `(r, j)` of the two-layer map reads row `r` of the activations, the first weights and bias whole, column `j`
    of the second weights and entry `j` of the second bias: two instances that agree there are equal. -/
theorem mlpAt_congr {R R' A B D : Nat} {x : FVec Ideal (⟨2, ![R, A]⟩ : Shape) .f32} {x' : FVec Ideal (⟨2, ![R', A]⟩ : Shape) .f32}
    {wa wa' : FVec Ideal (⟨2, ![A, B]⟩ : Shape) .f32} {ba ba' : FVec Ideal (⟨2, ![1, B]⟩ : Shape) .f32}
    {wb wb' : FVec Ideal (⟨2, ![B, D]⟩ : Shape) .f32} {bb bb' : FVec Ideal (⟨2, ![1, D]⟩ : Shape) .f32}
    {r : Fin R} {r' : Fin R'} {j j' : Fin D}
    (hx : ∀ l, x (ix2 r l) = x' (ix2 r' l)) (hwa : ∀ l k, wa (ix2 l k) = wa' (ix2 l k))
    (hba : ∀ k, ba (ix2 (0 : Fin 1) k) = ba' (ix2 (0 : Fin 1) k)) (hwb : ∀ k, wb (ix2 k j) = wb' (ix2 k j'))
    (hbb : bb (ix2 (0 : Fin 1) j) = bb' (ix2 (0 : Fin 1) j')) :
    mlpAt x wa ba wb bb r j = mlpAt x' wa' ba' wb' bb' r' j' := by
  unfold mlpAt
  simp only [hx, hwa, hba, hwb, hbb]

/-- Entry `(r, j)` of the head reads row `r` of the two activation arrays and the weights and bias whole. -/
theorem sageAt_congr {R R' A : Nat} {mean h : FVec Ideal (⟨2, ![R, A]⟩ : Shape) .f32} {mean' h' : FVec Ideal (⟨2, ![R', A]⟩ : Shape) .f32}
    {wl wl' wr wr' : FVec Ideal (⟨2, ![A, 1]⟩ : Shape) .f32} {bl bl' : FVec Ideal (⟨2, ![1, 1]⟩ : Shape) .f32}
    {r : Fin R} {r' : Fin R'} {j j' : Fin 1}
    (hm : ∀ k, mean (ix2 r k) = mean' (ix2 r' k)) (hh : ∀ k, h (ix2 r k) = h' (ix2 r' k))
    (hwl : ∀ k, wl (ix2 k j) = wl' (ix2 k j')) (hbl : bl (ix2 (0 : Fin 1) j) = bl' (ix2 (0 : Fin 1) j'))
    (hwr : ∀ k, wr (ix2 k j) = wr' (ix2 k j')) :
    sageAt mean h wl bl wr r j = sageAt mean' h' wl' bl' wr' r' j' := by
  unfold sageAt
  simp only [hm, hh, hwl, hbl, hwr]

end Idealize.ShloMosaic.DenseLayers

end
-- ==== Proof.LibClampedLayers.lean ====
/-
  Two dense stages with a clamp at zero after each, entry by entry, on the extended reals — stated for any extents.

  For activations `h : [R, A]`, weights `wa : [A, B]`, `wb : [B, D]` and bias rows `ba : [1, B]`, `bb : [1, D]`,

    hidden unit `k` of node `r`:   max (∑ l, h (r, l) * wa (l, k) + ba k) 0
    output entry `(r, j)`:          max (∑ k, hidden r k * wb (k, j) + bb j) 0.

  The tiled kernel's body (two products into the zero accumulator, the left operands narrowed to bf16 — nothing on
  extended reals —, each bias row broadcast down the row block, a clamp at zero after each product) and the reference's
  host operations (two `dot_general`s, each bias made a row and broadcast to every node, a clamp at zero after each)
  read, at an index, as this same nested sum: the summands and their order agree, so no law of the extended reals is
  used. An entry reads one row of the activations only, which is what lets a row block of the kernel stand for the rows
  of the whole array it was cut from.
-/
import proofs.«177730_j51677046505640_1_alg».proof.Proof.LibDenseLayers

noncomputable section

open scoped BigOperators

namespace Idealize.ShloMosaic.ClampedLayers

open Idealize.ShloMosaic Idealize.ShloMosaic.ValueIdx Idealize.ShloMosaic.RowOps Idealize.ShloMosaic.DenseLayers

/-- Hidden unit `k` of node `r`: the clamp at zero of row `r` of `h` against column `k` of `wa`, plus the bias. -/
def hiddenAt {R A B : Nat} (h : (⟨2, ![R, A]⟩ : Shape).Idx → EReal) (wa : (⟨2, ![A, B]⟩ : Shape).Idx → EReal)
    (ba : (⟨2, ![1, B]⟩ : Shape).Idx → EReal) (r : Fin R) (k : Fin B) : EReal :=
  max (∑ l : Fin A, h (ix2 r l) * wa (ix2 l k) + ba (ix2 (0 : Fin 1) k)) (Ideal.ofBits .f32 0x00000000#32)

/-- Output entry `(r, j)` of the layer: the clamp at zero of node `r`'s hidden units against column `j` of `wb`, plus
    the bias. -/
def ginAt {R A B D : Nat} (h : (⟨2, ![R, A]⟩ : Shape).Idx → EReal) (wa : (⟨2, ![A, B]⟩ : Shape).Idx → EReal)
    (ba : (⟨2, ![1, B]⟩ : Shape).Idx → EReal) (wb : (⟨2, ![B, D]⟩ : Shape).Idx → EReal)
    (bb : (⟨2, ![1, D]⟩ : Shape).Idx → EReal) (r : Fin R) (j : Fin D) : EReal :=
  max (∑ k : Fin B, hiddenAt h wa ba r k * wb (ix2 k j) + bb (ix2 (0 : Fin 1) j)) (Ideal.ofBits .f32 0x00000000#32)

/-- The layer as a whole array. -/
def layer {R A B D : Nat} (h : (⟨2, ![R, A]⟩ : Shape).Idx → EReal) (wa : (⟨2, ![A, B]⟩ : Shape).Idx → EReal)
    (ba : (⟨2, ![1, B]⟩ : Shape).Idx → EReal) (wb : (⟨2, ![B, D]⟩ : Shape).Idx → EReal)
    (bb : (⟨2, ![1, D]⟩ : Shape).Idx → EReal) : (⟨2, ![R, D]⟩ : Shape).Idx → EReal :=
  fun i => ginAt h wa ba wb bb (i 0) (i 1)

theorem layer_apply {R A B D : Nat} (h : (⟨2, ![R, A]⟩ : Shape).Idx → EReal) (wa : (⟨2, ![A, B]⟩ : Shape).Idx → EReal)
    (ba : (⟨2, ![1, B]⟩ : Shape).Idx → EReal) (wb : (⟨2, ![B, D]⟩ : Shape).Idx → EReal)
    (bb : (⟨2, ![1, D]⟩ : Shape).Idx → EReal) (r : Fin R) (j : Fin D) :
    layer h wa ba wb bb (ix2 r j) = ginAt h wa ba wb bb r j := rfl

/-! ## The kernel's body on one row block -/

/-- The body's stored value at `(r, j)` of the block: both products into the zero accumulator with bf16 weights as
    loaded, the left operand narrowed to bf16 on the way in, each bias row broadcast down the block, a clamp at zero
    after each product. `h0` is the block of activations the first product reads (the sum of a node's own features and
    its neighbours'). -/
theorem body_apply {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (h0 : FVec Ideal (⟨2, ![R, A]⟩ : Shape) .f32) (wa : FVec Ideal (⟨2, ![A, B]⟩ : Shape) .bf16)
    (ba : FVec Ideal (⟨2, ![1, B]⟩ : Shape) .f32) (wb : FVec Ideal (⟨2, ![B, D]⟩ : Shape) .bf16)
    (bb : FVec Ideal (⟨2, ![1, D]⟩ : Shape) .f32)
    (hwa : (⟨2, ![A, B]⟩ : Shape).ShapeCasts ⟨2, ![A, B]⟩) (hba : (⟨2, ![1, B]⟩ : Shape).ShapeCasts ⟨2, ![1, B]⟩)
    (hwb : (⟨2, ![B, D]⟩ : Shape).ShapeCasts ⟨2, ![B, D]⟩) (hbb : (⟨2, ![1, D]⟩ : Shape).ShapeCasts ⟨2, ![1, D]⟩)
    (hc1 : (⟨2, ![1, B]⟩ : Shape).Broadcasts ⟨2, ![R, B]⟩) (hc2 : (⟨2, ![1, D]⟩ : Shape).Broadcasts ⟨2, ![R, D]⟩)
    (hlt : FTy.bf16.bits < FTy.f32.bits) (r : Fin R) (j : Fin D) :
    maximumf (addf (matmul d2 none
        (truncf .bf16 (maximumf (addf (matmul d1 none (truncf .bf16 h0 hlt) (shapeCast _ wa hwa)
            (constant _ .f32 0x00000000#32)) (broadcastTo _ (shapeCast _ ba hba) hc1))
          (broadcast _ (Scalar.ofBits (F := Ideal) .f32 0x00000000#32))) hlt)
        (shapeCast _ wb hwb) (constant _ .f32 0x00000000#32)) (broadcastTo _ (shapeCast _ bb hbb) hc2))
      (broadcast _ (Scalar.ofBits (F := Ideal) .f32 0x00000000#32)) (ix2 r j)
      = ginAt h0 wa ba wb bb r j := by
  rw [maximumf_apply, addf_apply, broadcast_apply, broadcastTo_1b_ab_apply, shapeCast_self, shapeCast_self, shapeCast_self,
    shapeCast_self]
  unfold matmul
  rw [matmul_zero_plain_apply d2 hd2]
  unfold ginAt
  refine congrArg₂ max (congrArg₂ (· + ·) (Finset.sum_congr rfl fun k _ => ?_) rfl) rfl
  rw [truncf_apply, maximumf_apply, addf_apply, broadcast_apply, broadcastTo_1b_ab_apply, matmul_zero_plain_apply d1 hd1]
  rfl

/-! ## The reference's host operations -/

/-- The reference's layer at `(r, j)`: two `dot_general`s, each bias `[n]` made a row and broadcast to every node, a
    clamp at zero (the maximum with a broadcast zero) after each. -/
theorem host_apply {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (x : FVec Ideal (⟨2, ![R, A]⟩ : Shape) .f32) (wa : FVec Ideal (⟨2, ![A, B]⟩ : Shape) .f32)
    (ba : FVec Ideal (⟨1, ![B]⟩ : Shape) .f32) (wb : FVec Ideal (⟨2, ![B, D]⟩ : Shape) .f32)
    (bb : FVec Ideal (⟨1, ![D]⟩ : Shape) .f32)
    (ha1 : (⟨1, ![B]⟩ : Shape).BroadcastsInDim ⟨2, ![1, B]⟩ ![1]) (ha2 : (⟨2, ![1, B]⟩ : Shape).BroadcastsInDim ⟨2, ![R, B]⟩ ![0, 1])
    (hb1 : (⟨1, ![D]⟩ : Shape).BroadcastsInDim ⟨2, ![1, D]⟩ ![1]) (hb2 : (⟨2, ![1, D]⟩ : Shape).BroadcastsInDim ⟨2, ![R, D]⟩ ![0, 1])
    (hz1 : (⟨0, ![]⟩ : Shape).BroadcastsInDim ⟨2, ![R, B]⟩ ![]) (hz2 : (⟨0, ![]⟩ : Shape).BroadcastsInDim ⟨2, ![R, D]⟩ ![])
    (hsa : (⟨1, ![B]⟩ : Shape).ShapeCasts ⟨2, ![1, B]⟩) (hsb : (⟨1, ![D]⟩ : Shape).ShapeCasts ⟨2, ![1, D]⟩)
    (r : Fin R) (j : Fin D) :
    maximumf (addf (Host.dotGeneral d2 none
        (maximumf (addf (Host.dotGeneral d1 none x wa)
            (broadcastInDim _ ![0, 1] ha2 (broadcastInDim (⟨2, ![1, B]⟩ : Shape) ![1] ha1 ba)))
          (broadcastInDim _ ![] hz1 (constant (F := Ideal) ⟨0, ![]⟩ .f32 0x00000000#32))) wb)
        (broadcastInDim _ ![0, 1] hb2 (broadcastInDim (⟨2, ![1, D]⟩ : Shape) ![1] hb1 bb)))
      (broadcastInDim _ ![] hz2 (constant (F := Ideal) ⟨0, ![]⟩ .f32 0x00000000#32)) (ix2 r j)
      = ginAt x wa (shapeCast _ ba hsa) wb (shapeCast _ bb hsb) r j := by
  rw [maximumf_apply, addf_apply, broadcastInDim_scalar_apply, constant_apply, bias_row_apply bb hb1 hb2 hsb]
  unfold Host.dotGeneral
  rw [dotGeneral_plain_apply d2 hd2]
  unfold ginAt
  refine congrArg₂ max (congrArg₂ (· + ·) (Finset.sum_congr rfl fun k _ => ?_) rfl) rfl
  rw [maximumf_apply, addf_apply, broadcastInDim_scalar_apply, constant_apply, bias_row_apply ba ha1 ha2 hsa,
    dotGeneral_plain_apply d1 hd1]
  rfl

/-- The same, for the whole array. -/
theorem host_layer {R A B D : Nat}
    (d1 : DotDims (⟨2, ![R, A]⟩ : Shape) ⟨2, ![A, B]⟩ ⟨2, ![R, B]⟩) (hd1 : ∃ wf, d1 = plainDims wf)
    (d2 : DotDims (⟨2, ![R, B]⟩ : Shape) ⟨2, ![B, D]⟩ ⟨2, ![R, D]⟩) (hd2 : ∃ wf, d2 = plainDims wf)
    (x : FVec Ideal (⟨2, ![R, A]⟩ : Shape) .f32) (wa : FVec Ideal (⟨2, ![A, B]⟩ : Shape) .f32)
    (ba : FVec Ideal (⟨1, ![B]⟩ : Shape) .f32) (wb : FVec Ideal (⟨2, ![B, D]⟩ : Shape) .f32)
    (bb : FVec Ideal (⟨1, ![D]⟩ : Shape) .f32)
    (ha1 : (⟨1, ![B]⟩ : Shape).BroadcastsInDim ⟨2, ![1, B]⟩ ![1]) (ha2 : (⟨2, ![1, B]⟩ : Shape).BroadcastsInDim ⟨2, ![R, B]⟩ ![0, 1])
    (hb1 : (⟨1, ![D]⟩ : Shape).BroadcastsInDim ⟨2, ![1, D]⟩ ![1]) (hb2 : (⟨2, ![1, D]⟩ : Shape).BroadcastsInDim ⟨2, ![R, D]⟩ ![0, 1])
    (hz1 : (⟨0, ![]⟩ : Shape).BroadcastsInDim ⟨2, ![R, B]⟩ ![]) (hz2 : (⟨0, ![]⟩ : Shape).BroadcastsInDim ⟨2, ![R, D]⟩ ![])
    (hsa : (⟨1, ![B]⟩ : Shape).ShapeCasts ⟨2, ![1, B]⟩) (hsb : (⟨1, ![D]⟩ : Shape).ShapeCasts ⟨2, ![1, D]⟩) :
    maximumf (addf (Host.dotGeneral d2 none
        (maximumf (addf (Host.dotGeneral d1 none x wa)
            (broadcastInDim _ ![0, 1] ha2 (broadcastInDim (⟨2, ![1, B]⟩ : Shape) ![1] ha1 ba)))
          (broadcastInDim _ ![] hz1 (constant (F := Ideal) ⟨0, ![]⟩ .f32 0x00000000#32))) wb)
        (broadcastInDim _ ![0, 1] hb2 (broadcastInDim (⟨2, ![1, D]⟩ : Shape) ![1] hb1 bb)))
      (broadcastInDim _ ![] hz2 (constant (F := Ideal) ⟨0, ![]⟩ .f32 0x00000000#32))
      = layer x wa (shapeCast _ ba hsa) wb (shapeCast _ bb hsb) := by
  funext i
  obtain ⟨p, q, rfl⟩ : ∃ (p : Fin R) (q : Fin D), i = ix2 p q := ⟨i 0, i 1, eq_ix2 i⟩
  exact host_apply d1 hd1 d2 hd2 x wa ba wb bb ha1 ha2 hb1 hb2 hz1 hz2 hsa hsb p q

/-! ## An entry reads one row of the activations -/

/-- Entry `(r, j)` reads row `r` of the activations, the first weights and bias whole, column `j` of the second weights
    and entry `j` of the second bias: two instances that agree there are equal — whatever the number of rows of the
    two activation arrays. -/
theorem ginAt_congr {R R' A B D : Nat}
    {h : (⟨2, ![R, A]⟩ : Shape).Idx → EReal} {h' : (⟨2, ![R', A]⟩ : Shape).Idx → EReal}
    {wa wa' : (⟨2, ![A, B]⟩ : Shape).Idx → EReal} {ba ba' : (⟨2, ![1, B]⟩ : Shape).Idx → EReal}
    {wb wb' : (⟨2, ![B, D]⟩ : Shape).Idx → EReal} {bb bb' : (⟨2, ![1, D]⟩ : Shape).Idx → EReal}
    {r : Fin R} {r' : Fin R'} {j j' : Fin D}
    (hh : ∀ l, h (ix2 r l) = h' (ix2 r' l)) (hwa : ∀ l k, wa (ix2 l k) = wa' (ix2 l k))
    (hba : ∀ k, ba (ix2 (0 : Fin 1) k) = ba' (ix2 (0 : Fin 1) k)) (hwb : ∀ k, wb (ix2 k j) = wb' (ix2 k j'))
    (hbb : bb (ix2 (0 : Fin 1) j) = bb' (ix2 (0 : Fin 1) j')) :
    ginAt h wa ba wb bb r j = ginAt h' wa' ba' wb' bb' r' j' := by
  unfold ginAt hiddenAt
  simp only [hh, hwa, hba, hwb, hbb]

end Idealize.ShloMosaic.ClampedLayers

end
-- ==== Proof.Region0.lean ====
/-
  The first pipelined call's output array, as one function of the arrays the call finds on entry.

  The call walks the 100000 nodes in 25 row blocks of 4000. At a block it reads the same 4000 rows of the node features and
  of the neighbour sums, and the two weight matrices and two bias rows whole (their index maps are constant), and
  writes the layer's 4000 output rows. Entry `(r, j)` of a block depends on row `r` of the two activation blocks only,
  and block `t`'s row `r` is row `4000 t + r` of the array, so what block `t` writes back is block `t` of ONE array:
  the layer applied to the whole arrays. The 25 blocks cover every row, so the output array ends holding that.
-/
import proofs.«177730_j51677046505640_1_alg».proof.Proof.Gen.KernelIdeal.Frame
import proofs.«177730_j51677046505640_1_alg».proof.Proof.LibClampedLayers
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Idealize.ShloMosaic.RowOps Idealize.ShloMosaic.ClampedLayers
open Idealize.ShloMosaic.Pipeline (Dat)

/-- The offset of a whole-buffer access. -/
theorem offset_zero : (![0, 0] : Fin 2 → Nat) = fun _ => 0 := funext fun a => by fin_cases a <;> rfl

/-- The body's stored value at `(r, j)` of its block: the layer's entry over the block of summed activations. -/
theorem stored_apply (v0 : Vec Ideal S4000x128 .f32) (v1 : Vec Ideal S4000x128 .f32) (v5 : Vec Ideal S128x128 .bf16)
    (v8 : Vec Ideal S1x128 .f32) (v15 : Vec Ideal S128x128 .bf16) (v18 : Vec Ideal S1x128 .f32) (r : Fin 4000) (j : Fin 128) :
    k0_pay1 (F := Ideal) v0 v1 v5 v8 v15 v18 (ix2 r j) = ginAt (addf v0 v1 : FVec Ideal S4000x128 .f32) v5 v8 v15 v18 r j :=
  (body_apply dot_S4000x128_S128x128_S4000x128_1_0_0_1_n_n ⟨_, rfl⟩ dot_S4000x128_S128x128_S4000x128_1_0_0_1_n_n ⟨_, rfl⟩
    (addf v0 (shapeCast S4000x128 v1 shapeCasts_S4000x128_S4000x128)) v5 v8 v15 v18
    shapeCasts_S128x128_S128x128 shapeCasts_S1x128_S1x128 shapeCasts_S128x128_S128x128 shapeCasts_S1x128_S1x128
    broadcasts_S1x128_S4000x128 broadcasts_S1x128_S4000x128 bitsLt_bf16_f32 r j).trans (by rw [shapeCast_self])

/-- One entry of a block against one entry of the whole array: when the block's row is the array's row (for both
    activation arrays), the weights and biases are the arrays', and the block's column is the array's column, the body's
    stored value is the layer of the whole arrays there. -/
theorem stored_eq_layer (X AGG : FVec Ideal S100000x128 .f32) (WA WB : FVec Ideal S128x128 .bf16) (BA BB : FVec Ideal S1x128 .f32)
    (x0 x1 : Vec Ideal S4000x128 .f32) (x2 : Vec Ideal S128x128 .bf16) (x3 : Vec Ideal S1x128 .f32)
    (x4 : Vec Ideal S128x128 .bf16) (x5 : Vec Ideal S1x128 .f32) (y : S4000x128.Idx) (i : S100000x128.Idx)
    (h0 : ∀ l : Fin 128, x0 (ix2 (y 0) l) = X (ix2 (i 0) l)) (h1 : ∀ l : Fin 128, x1 (ix2 (y 0) l) = AGG (ix2 (i 0) l))
    (h2 : ∀ (l k : Fin 128), x2 (ix2 l k) = WA (ix2 l k)) (h3 : ∀ k : Fin 128, x3 (ix2 (0 : Fin 1) k) = BA (ix2 (0 : Fin 1) k))
    (h4 : ∀ k : Fin 128, x4 (ix2 k (y 1)) = WB (ix2 k (i 1))) (h5 : x5 (ix2 (0 : Fin 1) (y 1)) = BB (ix2 (0 : Fin 1) (i 1))) :
    k0_pay1 (F := Ideal) x0 x1 x2 x3 x4 x5 y = layer (addf X AGG : FVec Ideal S100000x128 .f32) WA BA WB BB i := by
  obtain ⟨r, j, rfl⟩ : ∃ (r : Fin 4000) (j : Fin 128), y = ix2 r j := ⟨y 0, y 1, eq_ix2 y⟩
  refine (stored_apply x0 x1 x2 x3 x4 x5 r j).trans ?_
  show ginAt (addf x0 x1 : FVec Ideal S4000x128 .f32) x2 x3 x4 x5 r j = ginAt (addf X AGG : FVec Ideal S100000x128 .f32) WA BA WB BB (i 0) (i 1)
  exact ginAt_congr (fun l => by rw [addf_apply, addf_apply, h0 l, h1 l]) h2 h3 h4 h5

/-- The printed index maps over the 25 grid points: the two activation windows and the output window sit at row block
    `t`, column block 0; the weight and bias windows at block (0, 0). -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every row block is some grid point's. -/
theorem index_onto : ∀ q : Fin 25, ∃ t : Fin cfg0.N, win0_6.index t = ![q.val, 0] :=
  (by decide +kernel : ∀ q : Fin 25, ∃ t : Fin grid0.N, win0_6.index t = ![q.val, 0])

section
variable (V : (c : Dev nD) → (b : Ref sig .tc) → Buf (Elt Ideal) ((c : Thread nD τ).loc b))

/-- The layer of the arrays the call finds on entry: node features plus neighbour sums, through the two weight
    matrices and bias rows as staged. -/
def arrayOut (c : Dev nD) : S100000x128.Idx → Elt Ideal .f32 :=
  layer (addf (V c main_arg0) (V c main_v25) : FVec Ideal S100000x128 .f32) (V c main_v5) (V c main_v12) (V c main_v7) (V c main_v13)

/-- What grid point `t` writes back is block `t` of `arrayOut`. -/
theorem flushed_eq (c : Dev nD) (t : Fin cfg0.N) :
    (dat0 V c).flushed 6 t = ((cfg0.win 6).blk t).view.read (Elt Ideal) (arrayOut V c) := by
  show (cfg0.win 6).cut (grid0.coords t) ((dat0 V c).after 6 t) = _
  rw [after0_6]
  unfold out0_6
  rw [View.canon_unit_zero offset_zero]
  simp only [View.ld_unit_zero (S := S4000x128) offset_zero, View.ld_unit_zero (S := S128x128) offset_zero,
    View.ld_unit_zero (S := S1x128) offset_zero]
  obtain ⟨e00, e01, e10, e11, e20, e21, e30, e31, e40, e41, e50, e51, e61⟩ := index_facts t
  funext y
  show k0_pay1 (F := Ideal) (iblk0 V c 0 t) (iblk0 V c 1 t) (iblk0 V c 2 t) (iblk0 V c 3 t) (iblk0 V c 4 t) (iblk0 V c 5 t) y
    = arrayOut V c (((cfg0.win 6).blk t).view.emb y)
  have hy0 : (y 0).val < 4000 := (y 0).isLt
  have hy1 : (y 1).val < 128 := (y 1).isLt
  refine stored_eq_layer (V c main_arg0) (V c main_v25) (V c main_v5) (V c main_v7) (V c main_v12) (V c main_v13)
    (iblk0 V c 0 t) (iblk0 V c 1 t) (iblk0 V c 2 t) (iblk0 V c 3 t) (iblk0 V c 4 t) (iblk0 V c 5 t) y
    (((cfg0.win 6).blk t).view.emb y) (fun l => ?_) (fun l => ?_) (fun l k => ?_) (fun k => ?_) (fun k => ?_) ?_
  · show V c main_arg0 (((cfg0.win 0).blk t).view.emb (ix2 (y 0) l)) = V c main_arg0 (ix2 ((((cfg0.win 6).blk t).view.emb y) 0) l)
    refine congrArg (V c main_arg0) (funext fun a => Fin.ext ?_)
    match a with
    | ⟨0, _⟩ => show win0_0.index t (0 : Fin 2) * 4000 + 1 * (y 0).val = win0_6.index t (0 : Fin 2) * 4000 + 1 * (y 0).val; omega
    | ⟨1, _⟩ => show win0_0.index t (1 : Fin 2) * 128 + 1 * l.val = l.val; omega
  · show V c main_v25 (((cfg0.win 1).blk t).view.emb (ix2 (y 0) l)) = V c main_v25 (ix2 ((((cfg0.win 6).blk t).view.emb y) 0) l)
    refine congrArg (V c main_v25) (funext fun a => Fin.ext ?_)
    match a with
    | ⟨0, _⟩ => show win0_1.index t (0 : Fin 2) * 4000 + 1 * (y 0).val = win0_6.index t (0 : Fin 2) * 4000 + 1 * (y 0).val; omega
    | ⟨1, _⟩ => show win0_1.index t (1 : Fin 2) * 128 + 1 * l.val = l.val; omega
  · show V c main_v5 (((cfg0.win 2).blk t).view.emb (ix2 l k)) = V c main_v5 (ix2 l k)
    refine congrArg (V c main_v5) (funext fun a => Fin.ext ?_)
    match a with
    | ⟨0, _⟩ => show win0_2.index t (0 : Fin 2) * 128 + 1 * l.val = l.val; omega
    | ⟨1, _⟩ => show win0_2.index t (1 : Fin 2) * 128 + 1 * k.val = k.val; omega
  · show V c main_v12 (((cfg0.win 3).blk t).view.emb (ix2 (0 : Fin 1) k)) = V c main_v12 (ix2 (0 : Fin 1) k)
    refine congrArg (V c main_v12) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  · show V c main_v7 (((cfg0.win 4).blk t).view.emb (ix2 k (y 1))) = V c main_v7 (ix2 k ((((cfg0.win 6).blk t).view.emb y) 1))
    refine congrArg (V c main_v7) (funext fun a => Fin.ext ?_)
    match a with
    | ⟨0, _⟩ => show win0_4.index t (0 : Fin 2) * 128 + 1 * k.val = k.val; omega
    | ⟨1, _⟩ => show win0_4.index t (1 : Fin 2) * 128 + 1 * (y 1).val = win0_6.index t (1 : Fin 2) * 128 + 1 * (y 1).val; omega
  · show V c main_v13 (((cfg0.win 5).blk t).view.emb (ix2 (0 : Fin 1) (y 1))) = V c main_v13 (ix2 (0 : Fin 1) ((((cfg0.win 6).blk t).view.emb y) 1))
    refine congrArg (V c main_v13) (funext fun a => Fin.ext ?_)
    match a with
    | ⟨0, _⟩ => show win0_5.index t (0 : Fin 2) * 1 + 1 * 0 = 0; omega
    | ⟨1, _⟩ => show win0_5.index t (1 : Fin 2) * 128 + 1 * (y 1).val = win0_6.index t (1 : Fin 2) * 128 + 1 * (y 1).val; omega

/-- An index of the output array lies in point `t`'s block iff each coordinate lies in the block's range on its axis. -/
theorem mem_block (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v26).slice (win0_6.rect t)).set ↔ _
  rw [View.set_slice_whole, Rect.mem_set_unit]
  exact Iff.rfl

/-- Every index of the output array lies in the block of the point whose row block holds its row. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := index_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- The output array after the call: the layer of the arrays found on entry. -/
theorem array_eq (c : Dev nD) : (dat0 V c).arrAt 6 cfg0.N = arrayOut V c :=
  (dat0 V c).arrAt_eq_of_cover 6 (arrayOut V c) (fun t _ => flushed_eq V c t) covered

end

end Cert.KernelIdeal.Layer0

end
-- ==== Proof.Region1.lean ====
/-
  The second pipelined call's output array, as one function of the arrays the call finds on entry.

  The call walks the 100000 nodes in 25 row blocks of 4000. At a block it reads the same 4000 rows of the first
  convolution's output and of its neighbour sums, and the two weight matrices and two bias rows whole (their index maps are constant), and
  writes the layer's 4000 output rows. Entry `(r, j)` of a block depends on row `r` of the two activation blocks only,
  and block `t`'s row `r` is row `4000 t + r` of the array, so what block `t` writes back is block `t` of ONE array:
  the layer applied to the whole arrays. The 25 blocks cover every row, so the output array ends holding that.
-/
import proofs.«177730_j51677046505640_1_alg».proof.Proof.Gen.KernelIdeal.Frame
import proofs.«177730_j51677046505640_1_alg».proof.Proof.LibClampedLayers
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Idealize.ShloMosaic.RowOps Idealize.ShloMosaic.ClampedLayers
open Idealize.ShloMosaic.Pipeline (Dat)

/-- The offset of a whole-buffer access. -/
theorem offset_zero : (![0, 0] : Fin 2 → Nat) = fun _ => 0 := funext fun a => by fin_cases a <;> rfl

/-- The body's stored value at `(r, j)` of its block: the layer's entry over the block of summed activations. -/
theorem stored_apply (v0 : Vec Ideal S4000x128 .f32) (v1 : Vec Ideal S4000x128 .f32) (v5 : Vec Ideal S128x128 .bf16)
    (v8 : Vec Ideal S1x128 .f32) (v15 : Vec Ideal S128x128 .bf16) (v18 : Vec Ideal S1x128 .f32) (r : Fin 4000) (j : Fin 128) :
    k1_pay1 (F := Ideal) v0 v1 v5 v8 v15 v18 (ix2 r j) = ginAt (addf v0 v1 : FVec Ideal S4000x128 .f32) v5 v8 v15 v18 r j :=
  (body_apply dot_S4000x128_S128x128_S4000x128_1_0_0_1_n_n ⟨_, rfl⟩ dot_S4000x128_S128x128_S4000x128_1_0_0_1_n_n ⟨_, rfl⟩
    (addf (shapeCast S4000x128 v0 shapeCasts_S4000x128_S4000x128) (shapeCast S4000x128 v1 shapeCasts_S4000x128_S4000x128)) v5 v8 v15 v18
    shapeCasts_S128x128_S128x128 shapeCasts_S1x128_S1x128 shapeCasts_S128x128_S128x128 shapeCasts_S1x128_S1x128
    broadcasts_S1x128_S4000x128 broadcasts_S1x128_S4000x128 bitsLt_bf16_f32 r j).trans (by rw [shapeCast_self, shapeCast_self])

/-- One entry of a block against one entry of the whole array: when the block's row is the array's row (for both
    activation arrays), the weights and biases are the arrays', and the block's column is the array's column, the body's
    stored value is the layer of the whole arrays there. -/
theorem stored_eq_layer (X AGG : FVec Ideal S100000x128 .f32) (WA WB : FVec Ideal S128x128 .bf16) (BA BB : FVec Ideal S1x128 .f32)
    (x0 x1 : Vec Ideal S4000x128 .f32) (x2 : Vec Ideal S128x128 .bf16) (x3 : Vec Ideal S1x128 .f32)
    (x4 : Vec Ideal S128x128 .bf16) (x5 : Vec Ideal S1x128 .f32) (y : S4000x128.Idx) (i : S100000x128.Idx)
    (h0 : ∀ l : Fin 128, x0 (ix2 (y 0) l) = X (ix2 (i 0) l)) (h1 : ∀ l : Fin 128, x1 (ix2 (y 0) l) = AGG (ix2 (i 0) l))
    (h2 : ∀ (l k : Fin 128), x2 (ix2 l k) = WA (ix2 l k)) (h3 : ∀ k : Fin 128, x3 (ix2 (0 : Fin 1) k) = BA (ix2 (0 : Fin 1) k))
    (h4 : ∀ k : Fin 128, x4 (ix2 k (y 1)) = WB (ix2 k (i 1))) (h5 : x5 (ix2 (0 : Fin 1) (y 1)) = BB (ix2 (0 : Fin 1) (i 1))) :
    k1_pay1 (F := Ideal) x0 x1 x2 x3 x4 x5 y = layer (addf X AGG : FVec Ideal S100000x128 .f32) WA BA WB BB i := by
  obtain ⟨r, j, rfl⟩ : ∃ (r : Fin 4000) (j : Fin 128), y = ix2 r j := ⟨y 0, y 1, eq_ix2 y⟩
  refine (stored_apply x0 x1 x2 x3 x4 x5 r j).trans ?_
  show ginAt (addf x0 x1 : FVec Ideal S4000x128 .f32) x2 x3 x4 x5 r j = ginAt (addf X AGG : FVec Ideal S100000x128 .f32) WA BA WB BB (i 0) (i 1)
  exact ginAt_congr (fun l => by rw [addf_apply, addf_apply, h0 l, h1 l]) h2 h3 h4 h5

/-- The printed index maps over the 25 grid points: the two activation windows and the output window sit at row block
    `t`, column block 0; the weight and bias windows at block (0, 0). -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 :=
  (by decide +kernel : ∀ t : Fin grid1.N, _)

/-- Every row block is some grid point's. -/
theorem index_onto : ∀ q : Fin 25, ∃ t : Fin cfg1.N, win1_6.index t = ![q.val, 0] :=
  (by decide +kernel : ∀ q : Fin 25, ∃ t : Fin grid1.N, win1_6.index t = ![q.val, 0])

section
variable (V : (c : Dev nD) → (b : Ref sig .tc) → Buf (Elt Ideal) ((c : Thread nD τ).loc b))

/-- The layer of the arrays the call finds on entry: the first convolution's rows plus their neighbour sums, through the two weight
    matrices and bias rows as staged. -/
def arrayOut (c : Dev nD) : S100000x128.Idx → Elt Ideal .f32 :=
  layer (addf (V c main_v26) (V c main_v36) : FVec Ideal S100000x128 .f32) (V c main_v9) (V c main_v14) (V c main_v11) (V c main_v15)

/-- What grid point `t` writes back is block `t` of `arrayOut`. -/
theorem flushed_eq (c : Dev nD) (t : Fin cfg1.N) :
    (dat1 V c).flushed 6 t = ((cfg1.win 6).blk t).view.read (Elt Ideal) (arrayOut V c) := by
  show (cfg1.win 6).cut (grid1.coords t) ((dat1 V c).after 6 t) = _
  rw [after1_6]
  unfold out1_6
  rw [View.canon_unit_zero offset_zero]
  simp only [View.ld_unit_zero (S := S4000x128) offset_zero, View.ld_unit_zero (S := S128x128) offset_zero,
    View.ld_unit_zero (S := S1x128) offset_zero]
  obtain ⟨e00, e01, e10, e11, e20, e21, e30, e31, e40, e41, e50, e51, e61⟩ := index_facts t
  funext y
  show k1_pay1 (F := Ideal) (iblk1 V c 0 t) (iblk1 V c 1 t) (iblk1 V c 2 t) (iblk1 V c 3 t) (iblk1 V c 4 t) (iblk1 V c 5 t) y
    = arrayOut V c (((cfg1.win 6).blk t).view.emb y)
  have hy0 : (y 0).val < 4000 := (y 0).isLt
  have hy1 : (y 1).val < 128 := (y 1).isLt
  refine stored_eq_layer (V c main_v26) (V c main_v36) (V c main_v9) (V c main_v11) (V c main_v14) (V c main_v15)
    (iblk1 V c 0 t) (iblk1 V c 1 t) (iblk1 V c 2 t) (iblk1 V c 3 t) (iblk1 V c 4 t) (iblk1 V c 5 t) y
    (((cfg1.win 6).blk t).view.emb y) (fun l => ?_) (fun l => ?_) (fun l k => ?_) (fun k => ?_) (fun k => ?_) ?_
  · show V c main_v26 (((cfg1.win 0).blk t).view.emb (ix2 (y 0) l)) = V c main_v26 (ix2 ((((cfg1.win 6).blk t).view.emb y) 0) l)
    refine congrArg (V c main_v26) (funext fun a => Fin.ext ?_)
    match a with
    | ⟨0, _⟩ => show win1_0.index t (0 : Fin 2) * 4000 + 1 * (y 0).val = win1_6.index t (0 : Fin 2) * 4000 + 1 * (y 0).val; omega
    | ⟨1, _⟩ => show win1_0.index t (1 : Fin 2) * 128 + 1 * l.val = l.val; omega
  · show V c main_v36 (((cfg1.win 1).blk t).view.emb (ix2 (y 0) l)) = V c main_v36 (ix2 ((((cfg1.win 6).blk t).view.emb y) 0) l)
    refine congrArg (V c main_v36) (funext fun a => Fin.ext ?_)
    match a with
    | ⟨0, _⟩ => show win1_1.index t (0 : Fin 2) * 4000 + 1 * (y 0).val = win1_6.index t (0 : Fin 2) * 4000 + 1 * (y 0).val; omega
    | ⟨1, _⟩ => show win1_1.index t (1 : Fin 2) * 128 + 1 * l.val = l.val; omega
  · show V c main_v9 (((cfg1.win 2).blk t).view.emb (ix2 l k)) = V c main_v9 (ix2 l k)
    refine congrArg (V c main_v9) (funext fun a => Fin.ext ?_)
    match a with
    | ⟨0, _⟩ => show win1_2.index t (0 : Fin 2) * 128 + 1 * l.val = l.val; omega
    | ⟨1, _⟩ => show win1_2.index t (1 : Fin 2) * 128 + 1 * k.val = k.val; omega
  · show V c main_v14 (((cfg1.win 3).blk t).view.emb (ix2 (0 : Fin 1) k)) = V c main_v14 (ix2 (0 : Fin 1) k)
    refine congrArg (V c main_v14) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_v11 (((cfg1.win 4).blk t).view.emb (ix2 k (y 1))) = V c main_v11 (ix2 k ((((cfg1.win 6).blk t).view.emb y) 1))
    refine congrArg (V c main_v11) (funext fun a => Fin.ext ?_)
    match a with
    | ⟨0, _⟩ => show win1_4.index t (0 : Fin 2) * 128 + 1 * k.val = k.val; omega
    | ⟨1, _⟩ => show win1_4.index t (1 : Fin 2) * 128 + 1 * (y 1).val = win1_6.index t (1 : Fin 2) * 128 + 1 * (y 1).val; omega
  · show V c main_v15 (((cfg1.win 5).blk t).view.emb (ix2 (0 : Fin 1) (y 1))) = V c main_v15 (ix2 (0 : Fin 1) ((((cfg1.win 6).blk t).view.emb y) 1))
    refine congrArg (V c main_v15) (funext fun a => Fin.ext ?_)
    match a with
    | ⟨0, _⟩ => show win1_5.index t (0 : Fin 2) * 1 + 1 * 0 = 0; omega
    | ⟨1, _⟩ => show win1_5.index t (1 : Fin 2) * 128 + 1 * (y 1).val = win1_6.index t (1 : Fin 2) * 128 + 1 * (y 1).val; omega

/-- An index of the output array lies in point `t`'s block iff each coordinate lies in the block's range on its axis. -/
theorem mem_block (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v37).slice (win1_6.rect t)).set ↔ _
  rw [View.set_slice_whole, Rect.mem_set_unit]
  exact Iff.rfl

/-- Every index of the output array lies in the block of the point whose row block holds its row. -/
theorem covered (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := index_onto ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The output array after the call: the layer of the arrays found on entry. -/
theorem array_eq (c : Dev nD) : (dat1 V c).arrAt 6 cfg1.N = arrayOut V c :=
  (dat1 V c).arrAt_eq_of_cover 6 (arrayOut V c) (fun t _ => flushed_eq V c t) covered

end

end Cert.KernelIdeal.Layer1

end
-- ==== Proof.GinSpec.lean ====
/-
  The whole computation, as functions of whole arrays on the extended reals.

  `neighbourSum feat e` is the aggregation both programs run on the host: the source endpoints `e[0]` (a negative one
  wrapped by the number of nodes) gather rows of `feat`, and the rows are summed into the zero array at the destination
  endpoints `e[1]`. `meanPool h b` is the tail both programs end with: the rows of `h` summed per graph label `b`,
  divided by the per-graph node counts clamped below at one. Both are kept as the host operations themselves: the two
  programs apply the same operations to the same arrays, so they are never opened.

  A convolution is the two clamped dense stages (LibClampedLayers) of a node's own row plus its neighbour sum, through the transposed weights and the
  biases as rows; the network is two convolutions, and its two results are the pooled array and the node array.
-/
import proofs.«177730_j51677046505640_1_alg».proof.Proof.Gen.ReferenceIdeal
import proofs.«177730_j51677046505640_1_alg».proof.Proof.LibClampedLayers

noncomputable section

namespace Cert.Gin

open Cert.ReferenceIdeal Cert.ReferenceIdeal.Gen Idealize.ShloMosaic Idealize.ShloMosaic.TcCoe Idealize.ShloMosaic.ClampedLayers

/-- A bias `[128]` is cast to a row `[1, 128]`. -/
theorem bias_casts : S128.ShapeCasts S1x128 := by decide

/-- The sum, per node, of its in-neighbours' rows of `feat` over the edge list `e`, the scatter's and the gather's
    dimension records as parameters (each program prints its own copy of the same records). -/
def neighbourSumWith (sd : ScatterDims S100000x128 S1600000x1 S1600000x128) (gd : GatherDims S100000x128 S1600000x1 S1600000x128)
    (feat : FVec Ideal S100000x128 .f32) (e : IVec S2x1600000 32) : FVec Ideal S100000x128 .f32 :=
  Host.scatterAdd (F := Ideal) sd (broadcastInDim S100000x128 ![] bcast_S_S100000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gd feat (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))

/-- The neighbour sums, at the reference's records. -/
def neighbourSum (feat : FVec Ideal S100000x128 .f32) (e : IVec S2x1600000 32) : FVec Ideal S100000x128 .f32 :=
  neighbourSumWith scatter_S100000x128_S1600000x1_S1600000x128_1_0_0_1 gather_S100000x128_S1600000x1_S1600000x128_1_0_n_n_0_1_1128 feat e

/-- The per-graph mean of the rows of `h` over the graph labels `b` (an empty graph divides by one), the two scatters'
    dimension records as parameters. -/
def meanPoolWith (sp : ScatterDims S100x128 S100000x1 S100000x128) (sc : ScatterDims S100 S100000x1 S100000)
    (h : FVec Ideal S100000x128 .f32) (b : IVec S100000 32) : FVec Ideal S100x128 .f32 :=
  Host.divf (F := Ideal) (Host.scatterAdd (F := Ideal) sp (broadcastInDim S100x128 ![] bcast_S_S100x128 (constant (F := Ideal) S_ .f32 0x00000000#32)) (broadcastInDim S100000x1 ![0] bcast_S100000_S100000x1_0 b) (h)) (broadcastInDim S100x128 ![0, 1] bcast_S100x1_S100x128_0_1 (broadcastInDim S100x1 ![0] bcast_S100_S100x1_0 (maximumf (Host.scatterAdd (F := Ideal) sc (broadcastInDim S100 ![] bcast_S_S100 (constant (F := Ideal) S_ .f32 0x00000000#32)) (broadcastInDim S100000x1 ![0] bcast_S100000_S100000x1_0 b) (broadcastInDim S100000 ![] bcast_S_S100000 (constant (F := Ideal) S_ .f32 0x3F800000#32))) (broadcastInDim S100 ![] bcast_S_S100 (constant (F := Ideal) S_ .f32 0x3F800000#32)))))

/-- The mean pool, at the reference's records. -/
def meanPool (h : FVec Ideal S100000x128 .f32) (b : IVec S100000 32) : FVec Ideal S100x128 .f32 :=
  meanPoolWith scatter_S100x128_S100000x1_S100000x128_1_0_0_1 scatter_S100_S100000x1_S100000_n_0_0_1 h b

/-- One convolution: the layer of each node's row plus its neighbour sum, the weights `[out, in]` transposed, the
    biases as rows. -/
def conv (h : FVec Ideal S100000x128 .f32) (e : IVec S2x1600000 32) (wa : FVec Ideal S128x128 .f32) (ba : FVec Ideal S128 .f32)
    (wb : FVec Ideal S128x128 .f32) (bb : FVec Ideal S128 .f32) : FVec Ideal S100000x128 .f32 :=
  layer (addf h (neighbourSum h e) : FVec Ideal S100000x128 .f32) (transpose S128x128 [1, 0] wa transposes_S128x128_S128x128_1_0) (shapeCast S1x128 ba bias_casts)
    (transpose S128x128 [1, 0] wb transposes_S128x128_S128x128_1_0) (shapeCast S1x128 bb bias_casts)

/-- The node array the network returns: two convolutions. -/
def nodes (x : FVec Ideal S100000x128 .f32) (e : IVec S2x1600000 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (w4 : FVec Ideal S128x128 .f32) (b4 : FVec Ideal S128 .f32) :
    FVec Ideal S100000x128 .f32 :=
  conv (conv x e w1 b1 w2 b2) e w3 b3 w4 b4

end Cert.Gin

end
-- ==== Proof.KernelFold.lean ====
/-
  The kernel program's buffers at each boundary of its run, read back to the launch arrays.

  The run is a fold: a stretch of host operations, the first pipelined call, a second stretch, the second call, a last
  stretch. After the first stretch the first call finds the node features, their neighbour sums, the first two weight
  matrices transposed (their narrowing to bf16 is nothing on extended reals) and the first two biases as rows; its output
  array is therefore the first convolution (Region0). The second stretch leaves that array in place and forms its
  neighbour sums from the same edge list; the second call finds those and the last two weights and biases, which no one
  has written since the first stretch, so its output array is the network's node array (Region1). The last stretch
  leaves it in place and pools it over the graph labels, which are still the launch array.
-/
import proofs.«177730_j51677046505640_1_alg».proof.Proof.Gen.KernelIdeal.Frame
import proofs.«177730_j51677046505640_1_alg».proof.Proof.Region0
import proofs.«177730_j51677046505640_1_alg».proof.Proof.Region1
import proofs.«177730_j51677046505640_1_alg».proof.Proof.GinSpec
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.Gin Idealize.ShloMosaic.ClampedLayers

/-! ## The two programs print the same dimension records -/

theorem scatterRows_eq : scatter_S100000x128_S1600000x1_S1600000x128_1_0_0_1 = Cert.ReferenceIdeal.scatter_S100000x128_S1600000x1_S1600000x128_1_0_0_1 := rfl
theorem gatherRows_eq : gather_S100000x128_S1600000x1_S1600000x128_1_0_n_n_0_1_1128 = Cert.ReferenceIdeal.gather_S100000x128_S1600000x1_S1600000x128_1_0_n_n_0_1_1128 := rfl
theorem scatterPool_eq : scatter_S100x128_S100000x1_S100000x128_1_0_0_1 = Cert.ReferenceIdeal.scatter_S100x128_S100000x1_S100000x128_1_0_0_1 := rfl
theorem scatterCount_eq : scatter_S100_S100000x1_S100000_n_0_0_1 = Cert.ReferenceIdeal.scatter_S100_S100000x1_S100000_n_0_0_1 := rfl

/-- The aggregation as this program's host operations spell it. -/
def neighbourSumK (feat : FVec Ideal S100000x128 .f32) (e : IVec S2x1600000 32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 feat (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))

/-- It is the specification's: the same operations, the same records. -/
theorem neighbourSumK_eq (feat : FVec Ideal S100000x128 .f32) (e : IVec S2x1600000 32) : neighbourSumK feat e = neighbourSum feat e := by
  refine (show neighbourSumK feat e = neighbourSumWith scatter_S100000x128_S1600000x1_S1600000x128_1_0_0_1 gather_S100000x128_S1600000x1_S1600000x128_1_0_n_n_0_1_1128 feat e from rfl).trans ?_
  unfold neighbourSum
  rw [scatterRows_eq, gatherRows_eq]

/-- The pooling tail as this program's host operations spell it. -/
def meanPoolK (h : FVec Ideal S100000x128 .f32) (b : IVec S100000 32) : FVec Ideal S100x128 .f32 :=
  Host.divf (F := Ideal) (Host.scatterAdd (F := Ideal) scatter_S100x128_S100000x1_S100000x128_1_0_0_1 (broadcastInDim S100x128 ![] bcast_S_S100x128 (constant (F := Ideal) S_ .f32 0x00000000#32)) (broadcastInDim S100000x1 ![0] bcast_S100000_S100000x1_0 b) (h)) (broadcastInDim S100x128 ![0, 1] bcast_S100x1_S100x128_0_1 (broadcastInDim S100x1 ![0] bcast_S100_S100x1_0 (maximumf (Host.scatterAdd (F := Ideal) scatter_S100_S100000x1_S100000_n_0_0_1 (broadcastInDim S100 ![] bcast_S_S100 (constant (F := Ideal) S_ .f32 0x00000000#32)) (broadcastInDim S100000x1 ![0] bcast_S100000_S100000x1_0 b) (broadcastInDim S100000 ![] bcast_S_S100000 (constant (F := Ideal) S_ .f32 0x3F800000#32))) (broadcastInDim S100 ![] bcast_S_S100 (constant (F := Ideal) S_ .f32 0x3F800000#32)))))

/-- It is the specification's: the same operations, the same records. -/
theorem meanPoolK_eq (h : FVec Ideal S100000x128 .f32) (b : IVec S100000 32) : meanPoolK h b = meanPool h b := by
  refine (show meanPoolK h b = meanPoolWith scatter_S100x128_S100000x1_S100000x128_1_0_0_1 scatter_S100_S100000x1_S100000_n_0_0_1 h b from rfl).trans ?_
  unfold meanPool
  rw [scatterPool_eq, scatterCount_eq]

variable (m : (ℓ : Loc nD τ sig) → Buf (Elt Ideal) ℓ) (ρ : Dev nD → PrngReg) (c : Dev nD)

/-- A buffer's contents at launch. -/
theorem launch_at (b : Ref sig .tc) : W0 m ρ c (Proc.devRef .tc b) = m ((c : Thread nD τ).loc b) := rfl

/-! ## After the first stretch: what the first call finds -/

/-- The node features are the launch array. -/
theorem features1 : W1 m ρ c (Proc.devRef .tc main_arg0) = (m ((c : Thread nD τ).loc main_arg0)) := by
  show StableHlo.after hostOps0 (W0 m ρ c) (Proc.devRef .tc main_arg0) = _
  dsimp only [hostOps0]
  after_results <;> rfl

set_option maxHeartbeats 2000000 in
/-- The neighbour sums of the node features, as printed. -/
theorem sums1K : W1 m ρ c (Proc.devRef .tc main_v25) = neighbourSumK (m ((c : Thread nD τ).loc main_arg0)) (m ((c : Thread nD τ).loc main_arg1)) := by
  show StableHlo.after hostOps0 (W0 m ρ c) (Proc.devRef .tc main_v25) = _
  dsimp only [hostOps0]
  after_results_simp
  rw [launch_at m ρ c main_arg0, launch_at m ρ c main_arg1]
  rfl

/-- The neighbour sums of the node features. -/
theorem sums1 : W1 m ρ c (Proc.devRef .tc main_v25) = neighbourSum (m ((c : Thread nD τ).loc main_arg0)) (m ((c : Thread nD τ).loc main_arg1)) :=
  (sums1K m ρ c).trans (neighbourSumK_eq _ _)

/-- The first weights, transposed. -/
theorem wa1 : W1 m ρ c (Proc.devRef .tc main_v5) = (transpose S128x128 [1, 0] (m ((c : Thread nD τ).loc main_arg3)) transposes_S128x128_S128x128_1_0) := by
  show StableHlo.after hostOps0 (W0 m ρ c) (Proc.devRef .tc main_v5) = _
  dsimp only [hostOps0]
  after_results <;> rfl

/-- The second weights, transposed. -/
theorem wb1 : W1 m ρ c (Proc.devRef .tc main_v7) = (transpose S128x128 [1, 0] (m ((c : Thread nD τ).loc main_arg5)) transposes_S128x128_S128x128_1_0) := by
  show StableHlo.after hostOps0 (W0 m ρ c) (Proc.devRef .tc main_v7) = _
  dsimp only [hostOps0]
  after_results <;> rfl

/-- The first bias as a row. -/
theorem ba1 : W1 m ρ c (Proc.devRef .tc main_v12) = (shapeCast S1x128 (m ((c : Thread nD τ).loc main_arg4)) bias_casts) := by
  show StableHlo.after hostOps0 (W0 m ρ c) (Proc.devRef .tc main_v12) = _
  dsimp only [hostOps0]
  after_results <;> rfl

/-- The second bias as a row. -/
theorem bb1 : W1 m ρ c (Proc.devRef .tc main_v13) = (shapeCast S1x128 (m ((c : Thread nD τ).loc main_arg6)) bias_casts) := by
  show StableHlo.after hostOps0 (W0 m ρ c) (Proc.devRef .tc main_v13) = _
  dsimp only [hostOps0]
  after_results <;> rfl

/-- The source endpoints. -/
theorem src1 : W1 m ρ c (Proc.devRef .tc main_v1) = (shapeCast S1600000 (extractStridedSlice S1x1600000 ![0, 0] (m ((c : Thread nD τ).loc main_arg1)) slices_S2x1600000_S1x1600000_0_0) shapeCasts_S1x1600000_S1600000) := by
  show StableHlo.after hostOps0 (W0 m ρ c) (Proc.devRef .tc main_v1) = _
  dsimp only [hostOps0]
  after_results <;> rfl

/-- The destination endpoints. -/
theorem dst1 : W1 m ρ c (Proc.devRef .tc main_v3) = (shapeCast S1600000 (extractStridedSlice S1x1600000 ![1, 0] (m ((c : Thread nD τ).loc main_arg1)) slices_S2x1600000_S1x1600000_1_0) shapeCasts_S1x1600000_S1600000) := by
  show StableHlo.after hostOps0 (W0 m ρ c) (Proc.devRef .tc main_v3) = _
  dsimp only [hostOps0]
  after_results <;> rfl

/-- The third weights, transposed. -/
theorem wa2_1 : W1 m ρ c (Proc.devRef .tc main_v9) = (transpose S128x128 [1, 0] (m ((c : Thread nD τ).loc main_arg7)) transposes_S128x128_S128x128_1_0) := by
  show StableHlo.after hostOps0 (W0 m ρ c) (Proc.devRef .tc main_v9) = _
  dsimp only [hostOps0]
  after_results <;> rfl

/-- The fourth weights, transposed. -/
theorem wb2_1 : W1 m ρ c (Proc.devRef .tc main_v11) = (transpose S128x128 [1, 0] (m ((c : Thread nD τ).loc main_arg9)) transposes_S128x128_S128x128_1_0) := by
  show StableHlo.after hostOps0 (W0 m ρ c) (Proc.devRef .tc main_v11) = _
  dsimp only [hostOps0]
  after_results <;> rfl

/-- The third bias as a row. -/
theorem ba2_1 : W1 m ρ c (Proc.devRef .tc main_v14) = (shapeCast S1x128 (m ((c : Thread nD τ).loc main_arg8)) bias_casts) := by
  show StableHlo.after hostOps0 (W0 m ρ c) (Proc.devRef .tc main_v14) = _
  dsimp only [hostOps0]
  after_results <;> rfl

/-- The fourth bias as a row. -/
theorem bb2_1 : W1 m ρ c (Proc.devRef .tc main_v15) = (shapeCast S1x128 (m ((c : Thread nD τ).loc main_arg10)) bias_casts) := by
  show StableHlo.after hostOps0 (W0 m ρ c) (Proc.devRef .tc main_v15) = _
  dsimp only [hostOps0]
  after_results <;> rfl

/-- The graph labels are the launch array. -/
theorem labels1 : W1 m ρ c (Proc.devRef .tc main_arg2) = (m ((c : Thread nD τ).loc main_arg2)) := by
  show StableHlo.after hostOps0 (W0 m ρ c) (Proc.devRef .tc main_arg2) = _
  dsimp only [hostOps0]
  after_results <;> rfl

/-! ## After the first call -/

/-- The first call's output array is the first convolution. -/
theorem conv1 : W2 m ρ c (Proc.devRef .tc main_v26) = (conv (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W2_arr m ρ c 6).trans ((Layer0.array_eq (V1 m ρ) c).trans ?_)
  unfold Layer0.arrayOut
  show layer (addf (W1 m ρ c (Proc.devRef .tc main_arg0)) (W1 m ρ c (Proc.devRef .tc main_v25)) : FVec Ideal S100000x128 .f32)
    (W1 m ρ c (Proc.devRef .tc main_v5)) (W1 m ρ c (Proc.devRef .tc main_v12)) (W1 m ρ c (Proc.devRef .tc main_v7)) (W1 m ρ c (Proc.devRef .tc main_v13)) = _
  rw [features1 m ρ c, sums1 m ρ c, wa1 m ρ c, wb1 m ρ c, ba1 m ρ c, bb1 m ρ c]
  rfl

/-! ## After the second stretch: what the second call finds -/

/-- The first convolution is still in place. -/
theorem features2 : W3 m ρ c (Proc.devRef .tc main_v26) = (conv (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show StableHlo.after hostOps1 (W2 m ρ c) (Proc.devRef .tc main_v26) = _
  dsimp only [hostOps1]
  after_results
  exact conv1 m ρ c

set_option maxHeartbeats 2000000 in
/-- The neighbour sums of the first convolution, over the same edge list, as printed. -/
theorem sums2K : W3 m ρ c (Proc.devRef .tc main_v36) = neighbourSumK (conv (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) := by
  show StableHlo.after hostOps1 (W2 m ρ c) (Proc.devRef .tc main_v36) = _
  dsimp only [hostOps1]
  after_results_simp
  rw [(W2_of_ne m ρ c main_v1 (by decide)).trans (src1 m ρ c), (W2_of_ne m ρ c main_v3 (by decide)).trans (dst1 m ρ c), conv1 m ρ c]
  rfl

/-- The neighbour sums of the first convolution, over the same edge list. -/
theorem sums2 : W3 m ρ c (Proc.devRef .tc main_v36) = neighbourSum (conv (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) :=
  (sums2K m ρ c).trans (neighbourSumK_eq _ _)

/-- The third weights, transposed: untouched since the first stretch. -/
theorem wa2 : W3 m ρ c (Proc.devRef .tc main_v9) = (transpose S128x128 [1, 0] (m ((c : Thread nD τ).loc main_arg7)) transposes_S128x128_S128x128_1_0) := by
  show StableHlo.after hostOps1 (W2 m ρ c) (Proc.devRef .tc main_v9) = _
  dsimp only [hostOps1]
  after_results
  exact (W2_of_ne m ρ c main_v9 (by decide)).trans (wa2_1 m ρ c)

/-- The fourth weights, transposed: untouched since the first stretch. -/
theorem wb2 : W3 m ρ c (Proc.devRef .tc main_v11) = (transpose S128x128 [1, 0] (m ((c : Thread nD τ).loc main_arg9)) transposes_S128x128_S128x128_1_0) := by
  show StableHlo.after hostOps1 (W2 m ρ c) (Proc.devRef .tc main_v11) = _
  dsimp only [hostOps1]
  after_results
  exact (W2_of_ne m ρ c main_v11 (by decide)).trans (wb2_1 m ρ c)

/-- The third bias as a row: untouched since the first stretch. -/
theorem ba2 : W3 m ρ c (Proc.devRef .tc main_v14) = (shapeCast S1x128 (m ((c : Thread nD τ).loc main_arg8)) bias_casts) := by
  show StableHlo.after hostOps1 (W2 m ρ c) (Proc.devRef .tc main_v14) = _
  dsimp only [hostOps1]
  after_results
  exact (W2_of_ne m ρ c main_v14 (by decide)).trans (ba2_1 m ρ c)

/-- The fourth bias as a row: untouched since the first stretch. -/
theorem bb2 : W3 m ρ c (Proc.devRef .tc main_v15) = (shapeCast S1x128 (m ((c : Thread nD τ).loc main_arg10)) bias_casts) := by
  show StableHlo.after hostOps1 (W2 m ρ c) (Proc.devRef .tc main_v15) = _
  dsimp only [hostOps1]
  after_results
  exact (W2_of_ne m ρ c main_v15 (by decide)).trans (bb2_1 m ρ c)

/-- The graph labels: untouched. -/
theorem labels3 : W3 m ρ c (Proc.devRef .tc main_arg2) = (m ((c : Thread nD τ).loc main_arg2)) := by
  show StableHlo.after hostOps1 (W2 m ρ c) (Proc.devRef .tc main_arg2) = _
  dsimp only [hostOps1]
  after_results
  exact (W2_of_ne m ρ c main_arg2 (by decide)).trans (labels1 m ρ c)

/-! ## After the second call -/

/-- The second call's output array is the network's node array. -/
theorem nodes4 : W4 m ρ c (Proc.devRef .tc main_v37) = (nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 6).trans ((Layer1.array_eq (V3 m ρ) c).trans ?_)
  unfold Layer1.arrayOut
  show layer (addf (W3 m ρ c (Proc.devRef .tc main_v26)) (W3 m ρ c (Proc.devRef .tc main_v36)) : FVec Ideal S100000x128 .f32)
    (W3 m ρ c (Proc.devRef .tc main_v9)) (W3 m ρ c (Proc.devRef .tc main_v14)) (W3 m ρ c (Proc.devRef .tc main_v11)) (W3 m ρ c (Proc.devRef .tc main_v15)) = _
  rw [features2 m ρ c, sums2 m ρ c, wa2 m ρ c, wb2 m ρ c, ba2 m ρ c, bb2 m ρ c]
  rfl

/-! ## After the last stretch: the results -/

/-- The node array the kernel program returns. -/
theorem nodes5 : W5 m ρ c (Proc.devRef .tc main_v37) = (nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps2 (W4 m ρ c) (Proc.devRef .tc main_v37) = _
  dsimp only [hostOps2]
  after_results
  exact nodes4 m ρ c

set_option maxHeartbeats 2000000 in
/-- The pooled array the kernel program returns, as printed. -/
theorem pooled5K : W5 m ρ c (Proc.devRef .tc main_v49) = meanPoolK (nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) := by
  show StableHlo.after hostOps2 (W4 m ρ c) (Proc.devRef .tc main_v49) = _
  dsimp only [hostOps2]
  after_results_simp
  rw [(W4_of_ne m ρ c main_arg2 (by decide)).trans (labels3 m ρ c), nodes4 m ρ c]
  rfl

/-- The pooled array the kernel program returns. -/
theorem pooled5 : W5 m ρ c (Proc.devRef .tc main_v49) = meanPool (nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) :=
  (pooled5K m ρ c).trans (meanPoolK_eq _ _)

end Cert.KernelIdeal.Fold

end
-- ==== Proof.RefIsGin.lean ====
/-
  The reference's two results are the network of GinSpec.

  Its run ends with each result at the composed term of its host operations. A convolution there is: the node rows
  plus their neighbour sums, a `dot_general` against the transposed first weights, the first bias made a row and
  broadcast to every node, the maximum with a broadcast zero, and the same again with the second weights and bias —
  which, read at an index, is the layer of LibClampedLayers (`host_layer`). The aggregation and the pooling tail are the
  specification's own host operations.
-/
import proofs.«177730_j51677046505640_1_alg».proof.Proof.Gen.ReferenceIdeal.Run
import proofs.«177730_j51677046505640_1_alg».proof.Proof.GinSpec

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.RowOps Cert.Gin Idealize.ShloMosaic.ClampedLayers

/-- One convolution as the reference's host operations spell it. -/
theorem host_conv (h : FVec Ideal S100000x128 .f32) (e : IVec S2x1600000 32) (wa : FVec Ideal S128x128 .f32) (ba : FVec Ideal S128 .f32)
    (wb : FVec Ideal S128x128 .f32) (bb : FVec Ideal S128 .f32) :
    maximumf (addf (Host.dotGeneral (F := Ideal) dot_S100000x128_S128x128_S100000x128_1_0_0_1_n_n none (maximumf (addf (Host.dotGeneral (F := Ideal) dot_S100000x128_S128x128_S100000x128_1_0_0_1_n_n none (addf h (neighbourSum h e)) (transpose S128x128 [1, 0] wa transposes_S128x128_S128x128_1_0)) (broadcastInDim S100000x128 ![0, 1] bcast_S1x128_S100000x128_0_1 (broadcastInDim S1x128 ![1] bcast_S128_S1x128_1 ba))) (broadcastInDim S100000x128 ![] bcast_S_S100000x128 (constant (F := Ideal) S_ .f32 0x00000000#32))) (transpose S128x128 [1, 0] wb transposes_S128x128_S128x128_1_0)) (broadcastInDim S100000x128 ![0, 1] bcast_S1x128_S100000x128_0_1 (broadcastInDim S1x128 ![1] bcast_S128_S1x128_1 bb))) (broadcastInDim S100000x128 ![] bcast_S_S100000x128 (constant (F := Ideal) S_ .f32 0x00000000#32))
      = conv h e wa ba wb bb :=
  host_layer dot_S100000x128_S128x128_S100000x128_1_0_0_1_n_n ⟨_, rfl⟩ dot_S100000x128_S128x128_S100000x128_1_0_0_1_n_n ⟨_, rfl⟩
    (addf h (neighbourSum h e)) (transpose S128x128 [1, 0] wa transposes_S128x128_S128x128_1_0) ba
    (transpose S128x128 [1, 0] wb transposes_S128x128_S128x128_1_0) bb
    bcast_S128_S1x128_1 bcast_S1x128_S100000x128_0_1 bcast_S128_S1x128_1 bcast_S1x128_S100000x128_0_1
    bcast_S_S100000x128 bcast_S_S100000x128 bias_casts bias_casts

variable (m : (ℓ : Loc nD τ sig) → Buf (Elt Ideal) ℓ) (c : Dev nD)

/-- The node array the reference returns is the network's. -/
theorem nodes_eq : res_out1 (F := Ideal) m c
    = nodes (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold nodes
  rw [← host_conv, ← host_conv]
  rfl

/-- The pooled array the reference returns is the mean pool of the network's node array. -/
theorem pooled_eq : res_out0 (F := Ideal) m c
    = meanPool (nodes (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2)) := by
  rw [← nodes_eq m c]
  rfl

end Cert.ReferenceIdeal.RefValue

end
-- ==== Proof.lean ====
/-
  A two-layer graph network, tiled kernel against host reference, equal on the extended reals.

  Both programs compute, twice, a convolution — each node's feature row plus the sum of its in-neighbours' rows, through
  two dense stages with a clamp at zero after each, the weights given `[out, in]` and transposed — and then the mean of
  the node rows per graph. The kernel program forms the neighbour sums and the pooling on the host and runs each
  convolution's dense part as a pipelined call over 25 blocks of 4000 nodes, adding a node's own row inside the call and
  narrowing the matrix operands to bf16; the reference does everything on the host. On extended reals the narrowing is
  the identity, a product into a zero accumulator and a `dot_general` are the same sum over the contracted index, and a
  block's rows depend on the matching rows of the whole arrays only — so both node arrays are the same function of the
  launch arrays (GinSpec's `nodes`), entry by entry with the same summands in the same order, and both pooled arrays are
  the same host operations applied to it. No law of the extended reals beyond that is used, and the precondition that
  the inputs are finite is never opened.

  The kernel's side: its run names the two results at the last boundary of the run's fold (KernelRun), and the fold is
  read back to the launch arrays (KernelFold, over Region0 and Region1). The reference's side: its run ends at the
  composed term of its host operations, which is the same network (RefIsGin). The three frame claims are the two
  programs' frame runs and the reference's run with the results dropped; the idealization rewrote nothing.
-/
import proofs.«177730_j51677046505640_1_alg».proof.Defs
import proofs.«177730_j51677046505640_1_alg».proof.Proof.Gen.Kernel
import proofs.«177730_j51677046505640_1_alg».proof.Proof.Gen.Kernel.Skeleton
import proofs.«177730_j51677046505640_1_alg».proof.Proof.Gen.Kernel.Launch
import proofs.«177730_j51677046505640_1_alg».proof.Proof.Gen.Kernel.Points
import proofs.«177730_j51677046505640_1_alg».proof.Proof.Gen.Kernel.Frame
import proofs.«177730_j51677046505640_1_alg».proof.Proof.Gen.KernelIdeal
import proofs.«177730_j51677046505640_1_alg».proof.Proof.Gen.KernelIdeal.Skeleton
import proofs.«177730_j51677046505640_1_alg».proof.Proof.Gen.KernelIdeal.Launch
import proofs.«177730_j51677046505640_1_alg».proof.Proof.Gen.KernelIdeal.Points
import proofs.«177730_j51677046505640_1_alg».proof.Proof.Gen.KernelIdeal.Frame
import proofs.«177730_j51677046505640_1_alg».proof.Proof.Gen.ReferenceIdeal
import proofs.«177730_j51677046505640_1_alg».proof.Proof.Gen.ReferenceIdeal.Run
import proofs.«177730_j51677046505640_1_alg».proof.Proof.Gen.Pre_finite_inputs
import proofs.«177730_j51677046505640_1_alg».proof.Proof.KernelRun
import proofs.«177730_j51677046505640_1_alg».proof.Proof.KernelFold
import proofs.«177730_j51677046505640_1_alg».proof.Proof.RefIsGin
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading on extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the pooled array at the mean pool of the network's
    node array and the node array at the network's, of the kernel program's launch arrays. -/
theorem algebraic : Cert.algebraic_KernelIdeal_ReferenceIdeal := by
  intro m ρ m' ρ' _ hagree
  refine ⟨_, _, (θ_run Cert.KernelIdeal.defs _ _).mono (fun _ h c =>
      ⟨(h c).1.trans (Cert.KernelIdeal.Fold.pooled5 m ρ c), (h c).2.1.trans (Cert.KernelIdeal.Fold.nodes5 m ρ c), (h c).2.2⟩)
    (Cert.KernelIdeal.Named.run_named (F := Ideal) m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.pooled_eq m' c).trans ?_
    rw [(hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2]
  · refine (Cert.ReferenceIdeal.RefValue.nodes_eq m' c).trans ?_
    rw [(hagree c).1,
      (hagree c).2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
